-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S800000 .f32) (main_arg4 : IVec S800000 32) (main_arg5 : IVec S800000 32) (main_arg6 : FVec F S800000 .f32) (main_arg7 : FVec F S128x128 .f32) (main_arg8 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg6
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S256x128 : Shape := ⟨2, ![256, 128]⟩
abbrev S5000x256 : Shape := ⟨2, ![5000, 256]⟩
abbrev S5000x128 : Shape := ⟨2, ![5000, 128]⟩

abbrev nBuf : Space → Nat
  | .hbm => 44
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S128x128, .f32⟩
  | .hbm, ⟨8, _⟩ => ⟨S128x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S800000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x256, .f32⟩
  | .hbm, ⟨42, _⟩ => ⟨S256x128, .f32⟩
  | .hbm, ⟨43, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  concatenates_S128x128_S128x128_S256x128_d0 : Shape.Concatenates [S128x128, S128x128] S256x128 0
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v26) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S128x128, .f32⟩
  | .hbm, ⟨8, _⟩ => ⟨S128x128, .f32⟩
  | .hbm, ⟨9, _⟩ => ⟨S50000x128, .f32⟩
  | .hbm, ⟨10, _⟩ => ⟨S50000x128, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BlockProduct.lean ====
/-
  One block of the dense stage: relu of a matrix product, entry by entry.

  The kernel body loads a block of 5000 rows of the [50000, 256] left matrix and the whole [256, 128] right matrix,
  multiplies them into a zero accumulator and takes the maximum with zero. At the ideal instance the change of float
  format before the product is the identity, so entry (p, q) of what the body stores is
      max (Σ_k L(p, k) · R(k, q)) 0,
  the sum over the 256 columns of the block's row p.
-/
import proofs.«141831_j42391327212275_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-- relu of the product of an [R, 256] matrix with a [256, 128] matrix, entry by entry; the zero of the maximum is kept
    as the single-precision zero word, the same word on both sides of the certificate. -/
def reluProd {R : Nat} (Z : (⟨2, ![R, 256]⟩ : Shape).Idx → EReal) (W : (⟨2, ![256, 128]⟩ : Shape).Idx → EReal) :
    (⟨2, ![R, 128]⟩ : Shape).Idx → EReal :=
  fun i => max (∑ k : Fin 256, Z (ix2 (i 0) k) * W (ix2 k (i 1))) (Ideal.ofBits .f32 0x00000000#32)

theorem reluProd_apply {R : Nat} (Z : (⟨2, ![R, 256]⟩ : Shape).Idx → EReal) (W : (⟨2, ![256, 128]⟩ : Shape).Idx → EReal)
    (p : Fin R) (q : Fin 128) :
    reluProd Z W (ix2 p q) = max (∑ k : Fin 256, Z (ix2 p k) * W (ix2 k q)) (Ideal.ofBits .f32 0x00000000#32) := rfl

/-- The left operand's index of the product at output (p, q) and contraction position k is (p, k). -/
theorem lhsIdx_eq (p : Fin 5000) (q : Fin 128) (k : Fin 256) :
    dot_S5000x256_S256x128_S5000x128_1_0_0_1_n_n.lhsIdx (ix2 p q)
      ((contrEquiv1 dot_S5000x256_S256x128_S5000x128_1_0_0_1_n_n 256 rfl rfl).symm k) = ix2 p k := by
  have hk := contrEquiv1_symm_val dot_S5000x256_S256x128_S5000x128_1_0_0_1_n_n 256 rfl rfl k
  funext a
  refine Fin.ext ?_
  match a with
  | ⟨0, _⟩ =>
    show (dot_S5000x256_S256x128_S5000x128_1_0_0_1_n_n.lhsIdx (ix2 p q) _ 0).val = p.val
    unfold DotDims.lhsIdx
    rw [dif_neg (show ¬(0 : Fin S5000x256.rank) ∈ dot_S5000x256_S256x128_S5000x128_1_0_0_1_n_n.lhsBatch by decide),
      dif_pos (show (0 : Fin S5000x256.rank) ∈ dot_S5000x256_S256x128_S5000x128_1_0_0_1_n_n.lhsNonContracting by decide)]
    rfl
  | ⟨1, _⟩ =>
    exact (dot_S5000x256_S256x128_S5000x128_1_0_0_1_n_n.lhsIdx_val_of_single rfl (ix2 p q) _).trans hk

/-- The right operand's index is (k, q). -/
theorem rhsIdx_eq (p : Fin 5000) (q : Fin 128) (k : Fin 256) :
    dot_S5000x256_S256x128_S5000x128_1_0_0_1_n_n.rhsIdx (ix2 p q)
      ((contrEquiv1 dot_S5000x256_S256x128_S5000x128_1_0_0_1_n_n 256 rfl rfl).symm k) = ix2 k q := by
  have hk := contrEquiv1_symm_val dot_S5000x256_S256x128_S5000x128_1_0_0_1_n_n 256 rfl rfl k
  funext a
  refine Fin.ext ?_
  match a with
  | ⟨0, _⟩ =>
    exact (dot_S5000x256_S256x128_S5000x128_1_0_0_1_n_n.rhsIdx_val_of_single rfl (ix2 p q) _).trans hk
  | ⟨1, _⟩ =>
    show (dot_S5000x256_S256x128_S5000x128_1_0_0_1_n_n.rhsIdx (ix2 p q) _ 1).val = q.val
    unfold DotDims.rhsIdx
    rw [dif_neg (show ¬(1 : Fin S256x128.rank) ∈ dot_S5000x256_S256x128_S5000x128_1_0_0_1_n_n.rhsBatch by decide),
      dif_pos (show (1 : Fin S256x128.rank) ∈ dot_S5000x256_S256x128_S5000x128_1_0_0_1_n_n.rhsNonContracting by decide)]
    rfl

/-- What the body stores, at entry (p, q): relu of row p of the left block against column q of the right matrix. -/
theorem stored_apply (x0 : Vec Ideal S5000x256 .f32) (x1 : Vec Ideal S256x128 .f32) (p : Fin 5000) (q : Fin 128) :
    k0_pay1 (F := Ideal) x0 x1 (ix2 p q)
      = max (∑ k : Fin 256, x0 (ix2 p k) * x1 (ix2 k q)) (Ideal.ofBits .f32 0x00000000#32) := by
  unfold k0_pay1
  refine congrArg (fun z => max z (Ideal.ofBits .f32 0x00000000#32)) ?_
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  rw [lhsIdx_eq, rhsIdx_eq, shapeCast_self, shapeCast_self]
  rfl

end Cert.KernelIdeal.BlockProduct

end
-- ==== Proof.WholeProduct.lean ====
/-
  The kernel's result array as one function of its inputs.

  The grid has ten points; point t stages rows 5000·t … 5000·t + 4999 of the [50000, 256] left matrix and the whole
  [256, 128] right matrix, and writes back rows 5000·t … 5000·t + 4999 of the result. Each block written is the
  restriction to those rows of relu(Z · W), where Z and W are the two matrices as the region finds them; the ten
  blocks tile the result, so after the run the result array is relu(Z · W).

  Z and W are themselves computed by the host operations in front of the region: Z is the two sparse-times-dense
  products A₁·X and A₂·X set side by side (256 = 128 + 128 columns), W is the two weight matrices stacked
  (256 = 128 + 128 rows).
-/
import proofs.«141831_j42391327212275_1_alg».proof.Proof.Gen.KernelIdeal.Value
import proofs.«141831_j42391327212275_1_alg».proof.Proof.BlockProduct
import Idealize.ShloMosaic.Lib.StableHlo.Run

noncomputable section

namespace Cert.KernelIdeal.WholeProduct

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.BlockProduct

variable (m : (ℓ : Loc nD τ sig) → Buf (Elt Ideal) ℓ) (ρ : Dev nD → PrngReg)

/-! ## One block -/

theorem origin : (![0, 0] : Fin 2 → Nat) = fun _ => 0 := funext fun a => by fin_cases a <;> rfl

/-- The index maps over the ten grid points: the left matrix's block moves down with the result's block, the right
    matrix is always block (0, 0), and every block starts at column 0. -/
theorem block_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks of the result is some point's. -/
theorem block_onto : ∀ b : Fin 10, ∃ t : Fin cfg0.N, win0_2.index t = ![b.val, 0] :=
  (by decide +kernel : ∀ b : Fin 10, ∃ t : Fin grid0.N, win0_2.index t = ![b.val, 0])

/-- A block's entry is the whole product's entry: if the staged left block x0 holds rows 5000·b … of Z and the staged
    right block is W, then what the body stores at j is relu(Z · W) at the index i that j has in the whole array. -/
theorem block_entry (Z : S50000x256.Idx → EReal) (W : S256x128.Idx → EReal) (x0 : Vec Ideal S5000x256 .f32)
    (x1 : Vec Ideal S256x128 .f32) (j : S5000x128.Idx) (i : S50000x128.Idx) (b : Nat)
    (hx0 : ∀ (p : Fin 5000) (k : Fin 256) (r : Fin 50000), r.val = b * 5000 + p.val → x0 (ix2 p k) = Z (ix2 r k))
    (hx1 : ∀ y, x1 y = W y)
    (hi0 : (i 0).val = b * 5000 + (j 0).val) (hi1 : (i 1).val = (j 1).val) :
    k0_pay1 (F := Ideal) x0 x1 j = reluProd Z W i := by
  obtain ⟨p, q, rfl⟩ : ∃ (p : Fin 5000) (q : Fin 128), j = ix2 p q := ⟨j 0, j 1, eq_ix2 j⟩
  obtain ⟨r, o, rfl⟩ : ∃ (r : Fin 50000) (o : Fin 128), i = ix2 r o := ⟨i 0, i 1, eq_ix2 i⟩
  have ho : o = q := Fin.ext hi1
  subst ho
  rw [stored_apply, reluProd_apply]
  refine congrArg (fun z => max z (Ideal.ofBits .f32 0x00000000#32)) (Finset.sum_congr rfl fun k _ => ?_)
  rw [hx0 p k r hi0, hx1]

/-- What point t writes back is block t of relu(Z · W). -/
theorem flushed_eq (c : Dev nD) (t : Fin cfg0.N) :
    (dats m 0 c).flushed 2 t = ((cfg0.win 2).blk t).view.read (Elt Ideal)
      (reluProd (V m c main_v26 : S50000x256.Idx → EReal) (V m c main_v27 : S256x128.Idx → EReal)) := by
  rw [Cert.KernelIdeal.Value.flushed2]
  unfold out0_2
  rw [View.canon_unit_zero origin]
  simp only [View.ld_unit_zero (S := S5000x256) origin, View.ld_unit_zero (S := S256x128) origin]
  obtain ⟨e0, e1, e2, e3, e4⟩ := block_index t
  funext j
  rw [View.read_apply]
  refine Eq.trans ?_ (cast_eq _ _).symm
  refine block_entry (V m c main_v26) (V m c main_v27) (iblk m c 0 t) (iblk m c 1 t)
    ((win0 2).xinj (grid0.coords t) j) (((View.whole main_v28).slice ((win0 2).rect t)).emb j)
    (win0_2.index t (0 : Fin 2)) ?_ ?_ ?_ ?_
  · intro p k r hr
    unfold iblk
    rw [View.read_apply]
    refine (cast_eq _ _).trans ?_
    refine congrArg (V m c main_v26) (funext fun a => Fin.ext ?_)
    match a with
    | ⟨0, _⟩ => show win0_0.index t (0 : Fin 2) * 5000 + 1 * p.val = r.val; omega
    | ⟨1, _⟩ => show win0_0.index t (1 : Fin 2) * 256 + 1 * k.val = k.val; omega
  · intro y
    unfold iblk
    rw [View.read_apply]
    refine (cast_eq _ _).trans ?_
    refine congrArg (V m c main_v27) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  · show win0_2.index t (0 : Fin 2) * 5000 + 1 * (j 0).val = win0_2.index t (0 : Fin 2) * 5000 + (j 0).val; omega
  · show win0_2.index t (1 : Fin 2) * 128 + 1 * (j 1).val = (j 1).val; omega

/-! ## The ten blocks tile the result -/

/-- An index of the result is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Row r of the result lies in the block of the point whose block index is r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the run the result array is relu(Z · W) of the two matrices the region finds. -/
theorem whole (c : Dev nD) :
    (dats m 0 c).arrAt 2 cfg0.N
      = reluProd (V m c main_v26 : S50000x256.Idx → EReal) (V m c main_v27 : S256x128.Idx → EReal) :=
  (dats m 0 c).arrAt_eq_of_cover 2 _ (fun t _ => flushed_eq m c t) covered

end Cert.KernelIdeal.WholeProduct

end
-- ==== Proof.LibGatherRead.lean ====
/-
  `stablehlo.gather` read at an index, for the two arrangements a texture fetch lowers to.

  Rows of a matrix (`take` along axis 0 of an `[N, C]` operand at `[M, 1]` start indices, result `[M, C]`): result
  entry `(r, c)` is the operand at row `idx[r, 0]`, read as a signed integer and clamped into `[0, N − 1]`, column `c`.

  Pixels of a stack of images (a `[C, H, W]` operand at `[R, S, 2]` start indices holding a (row, column) pair per
  result pixel, result `[C, R, S]`): result entry `(c, r, s)` is the operand at channel `c`, row `idx[r, s, 0]` and
  column `idx[r, s, 1]`, each read signed and clamped into its axis.

  Both follow the definition axis by axis: on an axis named by the start index map the slice starts at the clamped
  index component and has length one; on the remaining axis the slice is whole and the result's own coordinate is the
  offset. All extents are variables.
-/
import Idealize.ShloMosaic.PureOps.Ideal
import Idealize.ShloMosaic.Lib.ValueIdx

noncomputable section

namespace Cert.MipGather

open Idealize.ShloMosaic Idealize.ShloMosaic.ValueIdx

section Rows
variable {α : Type}

abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowsDims N M C wf) x idx (ix2 r c)
      = x (ix2 ⟨min (idx (ix2 r (0 : Fin 1))).toInt.toNat (N - 1), by omega⟩ c) := by
  unfold Host.gather
  congr 1
  funext a
  refine Fin.ext ?_
  show (rowsDims N M C wf).start (ix2 r c) idx a + (rowsDims N M C wf).batchCoord (ix2 r c) a
    + (rowsDims N M C wf).offCoord (ix2 r c) a = _
  rw [GatherDims.batchCoord_eq_zero _ _ _ List.not_mem_nil]
  have ha : a = 0 ∨ a = 1 := by
    rcases a with ⟨v, hv⟩
    have hv2 : v < 2 := hv
    rcases (by omega : v = 0 ∨ v = 1) with rfl | rfl
    · left; rfl
    · right; rfl
  rcases ha with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx (ix2 r c) ⟨List.idxOf (0 : Fin 2) (rowsDims N M C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · have h1 : (1 : Fin 2) ∉ (rowsDims N M C wf).startIndexMap :=
      (by decide : (1 : Fin 2) ∉ ([0] : List (Fin 2)))
    have h2 : (1 : Fin 2) ∈ (rowsDims N M C wf).sKept :=
      (GatherDims.mem_sKept _ _).mpr ⟨(by decide : (1 : Fin 2) ∉ ([0] : List (Fin 2))), List.not_mem_nil⟩
    have h3 : (rowsDims N M C wf).sKept = [1] := by
      simp [GatherDims.sKept, Shape.kept, List.finRange_succ]
    unfold GatherDims.start GatherDims.offCoord
    rw [dif_neg h1, dif_pos h2]
    have hone : ∀ (k : Nat) (hk : k < ([1] : List (Fin 2)).length), ([1] : List (Fin 2))[k] = 1 := by
      intro k hk
      have : k = 0 := by simpa using hk
      subst this
      rfl
    show 0 + 0 + ((ix2 r c) (([1] : List (Fin 2))[_]'_)).val = _
    rw [hone]
    simp only [Nat.zero_add]
    rfl

end Rows

section Pixels
variable {α : Type}

abbrev pixDims (C H W R S : Nat)
    (wf : GatherDims.WF ⟨3, ![C, H, W]⟩ ⟨3, ![R, S, 2]⟩ ⟨3, ![C, R, S]⟩ [0] [1, 2] [] [1, 2] [] 2 ![C, 1, 1]) :
    GatherDims ⟨3, ![C, H, W]⟩ ⟨3, ![R, S, 2]⟩ ⟨3, ![C, R, S]⟩ where
  offsetDims := [0]
  collapsedSliceDims := [1, 2]
  operandBatchingDims := []
  startIndicesBatchingDims := []
  startIndexMap := [1, 2]
  indexVectorDim := 2
  sliceSizes := ![C, 1, 1]
  wf := wf

theorem gather_pix_apply {C H W R S w : Nat} (hH : 0 < H) (hW : 0 < W)
    (wf : GatherDims.WF ⟨3, ![C, H, W]⟩ ⟨3, ![R, S, 2]⟩ ⟨3, ![C, R, S]⟩ [0] [1, 2] [] [1, 2] [] 2 ![C, 1, 1])
    (x : (⟨3, ![C, H, W]⟩ : Shape).Idx → α) (idx : IVec ⟨3, ![R, S, 2]⟩ w) (c : Fin C) (r : Fin R) (s : Fin S) :
    Host.gather (pixDims C H W R S wf) x idx (ix3 c r s)
      = x (ix3 c ⟨min (idx (ix3 r s (0 : Fin 2))).toInt.toNat (H - 1), by omega⟩
                 ⟨min (idx (ix3 r s (1 : Fin 2))).toInt.toNat (W - 1), by omega⟩) := by
  unfold Host.gather
  congr 1
  funext a
  refine Fin.ext ?_
  show (pixDims C H W R S wf).start (ix3 c r s) idx a + (pixDims C H W R S wf).batchCoord (ix3 c r s) a
    + (pixDims C H W R S wf).offCoord (ix3 c r s) a = _
  rw [GatherDims.batchCoord_eq_zero _ _ _ List.not_mem_nil]
  have ha : a = 0 ∨ a = 1 ∨ a = 2 := by
    rcases a with ⟨v, hv⟩
    have hv3 : v < 3 := hv
    rcases (by omega : v = 0 ∨ v = 1 ∨ v = 2) with rfl | rfl | rfl
    · left; rfl
    · right; left; rfl
    · right; right; rfl
  rcases ha with rfl | rfl | rfl
  · have h1 : (0 : Fin 3) ∉ (pixDims C H W R S wf).startIndexMap :=
      (by decide : (0 : Fin 3) ∉ ([1, 2] : List (Fin 3)))
    have h2 : (0 : Fin 3) ∈ (pixDims C H W R S wf).sKept :=
      (GatherDims.mem_sKept _ _).mpr ⟨(by decide : (0 : Fin 3) ∉ ([1, 2] : List (Fin 3))), List.not_mem_nil⟩
    unfold GatherDims.start GatherDims.offCoord
    rw [dif_neg h1, dif_pos h2]
    have hone : ∀ (k : Nat) (hk : k < ([0] : List (Fin 3)).length), ([0] : List (Fin 3))[k] = 0 := by
      intro k hk
      have : k = 0 := by simpa using hk
      subst this
      rfl
    show 0 + 0 + ((ix3 c r s) (([0] : List (Fin 3))[_]'_)).val = _
    rw [hone]
    simp only [Nat.zero_add]
    rfl
  · rw [GatherDims.offCoord_eq_zero _ _ _ (fun h => ((GatherDims.mem_sKept _ _).mp h).1
      (by decide : (1 : Fin 3) ∈ ([1, 2] : List (Fin 3))))]
    simp only [Nat.add_zero]
    unfold GatherDims.start
    rw [dif_pos (show (1 : Fin 3) ∈ (pixDims C H W R S wf).startIndexMap from
      (by decide : (1 : Fin 3) ∈ ([1, 2] : List (Fin 3))))]
    have hsi : (pixDims C H W R S wf).siIdx (ix3 c r s) ⟨List.idxOf (1 : Fin 3) (pixDims C H W R S wf).startIndexMap,
        List.idxOf_lt_length_iff.2 (by decide : (1 : Fin 3) ∈ ([1, 2] : List (Fin 3)))⟩ = ix3 r s (0 : Fin 2) := by
      funext b; refine Fin.ext ?_
      match b with
      | ⟨0, _⟩ => rfl
      | ⟨1, _⟩ => rfl
      | ⟨2, _⟩ => rfl
    rw [hsi]
    rfl
  · rw [GatherDims.offCoord_eq_zero _ _ _ (fun h => ((GatherDims.mem_sKept _ _).mp h).1
      (by decide : (2 : Fin 3) ∈ ([1, 2] : List (Fin 3))))]
    simp only [Nat.add_zero]
    unfold GatherDims.start
    rw [dif_pos (show (2 : Fin 3) ∈ (pixDims C H W R S wf).startIndexMap from
      (by decide : (2 : Fin 3) ∈ ([1, 2] : List (Fin 3))))]
    have hsi : (pixDims C H W R S wf).siIdx (ix3 c r s) ⟨List.idxOf (2 : Fin 3) (pixDims C H W R S wf).startIndexMap,
        List.idxOf_lt_length_iff.2 (by decide : (2 : Fin 3) ∈ ([1, 2] : List (Fin 3)))⟩ = ix3 r s (1 : Fin 2) := by
      funext b; refine Fin.ext ?_
      match b with
      | ⟨0, _⟩ => rfl
      | ⟨1, _⟩ => rfl
      | ⟨2, _⟩ => rfl
    rw [hsi]
    rfl

end Pixels

end Cert.MipGather

end
-- ==== Proof.LibScatterRows.lean ====
/-
  The accumulating scatter of the rows of a matrix, read at an index.

  An [M, C] matrix of updates is added, row by row, into an [N, C] operand at the rows an [M, 1] column of signed
  integers names: update row e lands on operand row idx[e, 0] when that number lies in [0, N), and is dropped otherwise.
  So entry (r, o) of the result is the operand's entry there plus the sum, over the update rows e whose index is r, of
  the update's entry (e, o). All extents are variables.

  The landing index is computed axis by axis. On the operand's axis 0 (the scattered, inserted axis) the window starts
  at the signed number idx[e, 0], read without clamping, and the window coordinate is 0. On axis 1 (the window axis) the
  start is 0 and the window coordinate is the update's column d. Hence update entry (e, d) lands on (idx[e, 0], d) when
  0 ≤ idx[e, 0] < N, and nowhere otherwise. The sum over the [M, C] update entries landing on (r, o) then splits into the
  double sum over rows e and columns d; the inner sum over d keeps the single term d = o, which leaves the sum over the
  rows e with idx[e, 0] = r of the update's entry (e, o).
-/
import Idealize.ShloMosaic.PureOps.Ideal
import Idealize.ShloMosaic.Lib.ValueIdx

noncomputable section

namespace Cert.ScatterRows

open Idealize.ShloMosaic Idealize.ShloMosaic.ValueIdx

/-- The dimension numbers of a row scatter: the update's axis 1 is the window axis, the operand's axis 0 is the
    scattered one, and the index vector lies along axis 1 of the indices. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The operand's axes that are not inserted: of the two axes, only axis 1. -/
private theorem sKept_eq {N M C : Nat}
    (wf : ScatterDims.WF ⟨2, ![N, C]⟩ ⟨2, ![M, 1]⟩ ⟨2, ![M, C]⟩ [1] [0] [0] 1) :
    (rowsScatter N M C wf).sKept = [1] := by
  simp [ScatterDims.sKept, Shape.kept, List.finRange_succ]

/-- On axis 0 the window of update entry (e, d) starts at the signed row index idx[e, 0], whatever d is: axis 0 is the
    one component of the start index, and it is read at position (e, 0) of the indices. -/
private theorem start_zero {N M C w : Nat}
    (wf : ScatterDims.WF ⟨2, ![N, C]⟩ ⟨2, ![M, 1]⟩ ⟨2, ![M, C]⟩ [1] [0] [0] 1)
    (idx : IVec ⟨2, ![M, 1]⟩ w) (e : Fin M) (d : Fin C) :
    (rowsScatter N M C wf).start (ix2 e d) idx 0 = (idx (ix2 e (0 : Fin 1))).toInt := by
  unfold ScatterDims.start
  rw [dif_pos (show (0 : Fin 2) ∈ (rowsScatter N M C wf).scatterDimsToOperandDims from List.mem_singleton.mpr rfl)]
  have hsi : (rowsScatter N M C wf).siIdx (ix2 e d) ⟨List.idxOf (0 : Fin 2) (rowsScatter N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1 the window starts at 0: the start index has no component for that axis. -/
private theorem start_one {N M C w : Nat}
    (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowsScatter N M C wf).start j idx 1 = 0 := by
  unfold ScatterDims.start
  rw [dif_neg (fun h => absurd (List.mem_singleton.mp h) (show ¬ ((1 : Fin 2) = 0) by decide))]

/-- On axis 0 the window coordinate is 0: the axis is inserted, the window has extent one there. -/
private theorem window_zero {N M C : Nat}
    (wf : ScatterDims.WF ⟨2, ![N, C]⟩ ⟨2, ![M, 1]⟩ ⟨2, ![M, C]⟩ [1] [0] [0] 1)
    (j : (⟨2, ![M, C]⟩ : Shape).Idx) :
    (rowsScatter N M C wf).window j 0 = 0 := by
  unfold ScatterDims.window
  rw [dif_neg (by rw [sKept_eq]; exact fun h => absurd (List.mem_singleton.mp h) (show ¬ ((0 : Fin 2) = 1) by decide))]

/-- On axis 1 the window coordinate of update entry (e, d) is its column d. -/
private theorem window_one {N M C : Nat}
    (wf : ScatterDims.WF ⟨2, ![N, C]⟩ ⟨2, ![M, 1]⟩ ⟨2, ![M, C]⟩ [1] [0] [0] 1)
    (e : Fin M) (d : Fin C) :
    (rowsScatter N M C wf).window (ix2 e d) 1 = d.val := by
  unfold ScatterDims.window
  rw [dif_pos (by rw [sKept_eq]; exact List.mem_singleton.mpr rfl)]
  rfl

/-- Update entry (e, d) lands on operand entry (r, o) exactly when the signed row index idx[e, 0] of e is r and d = o;
    a row index outside [0, N) equals no r, so that update lands nowhere. -/
theorem resultIdx?_rows_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (d : Fin C) (r : Fin N) (o : Fin C) :
    (rowsScatter N M C wf).resultIdx? (ix2 e d) idx = some (ix2 r o)
      ↔ (idx (ix2 e (0 : Fin 1))).toInt = (r.val : Int) ∧ d = o := by
  -- start plus window coordinate, axis by axis: idx[e, 0] on axis 0, d on axis 1
  have s0 : (rowsScatter N M C wf).start (ix2 e d) idx 0 + ((rowsScatter N M C wf).window (ix2 e d) 0 : Nat)
      = (idx (ix2 e (0 : Fin 1))).toInt := by
    rw [start_zero, window_zero]; simp
  have s1 : (rowsScatter N M C wf).start (ix2 e d) idx 1 + ((rowsScatter N M C wf).window (ix2 e d) 1 : Nat)
      = (d.val : Int) := by
    rw [start_one, window_one]; simp
  unfold ScatterDims.resultIdx?
  by_cases hall : ∀ a, 0 ≤ (rowsScatter N M C wf).start (ix2 e d) idx a + ((rowsScatter N M C wf).window (ix2 e d) a : Nat)
      ∧ (rowsScatter N M C wf).start (ix2 e d) idx a + ((rowsScatter N M C wf).window (ix2 e d) a : Nat)
        < ((⟨2, ![N, C]⟩ : Shape).size a : Nat)
  · -- the landing index is inside the operand: it is (idx[e, 0], d), compared with (r, o) coordinate by coordinate
    rw [dif_pos hall]
    constructor
    · intro h
      have heq := Option.some.inj h
      have h0 : ((rowsScatter N M C wf).start (ix2 e d) idx 0 + ((rowsScatter N M C wf).window (ix2 e d) 0 : Nat)).toNat = r.val :=
        congrArg (fun f => (f 0).val) heq
      have h1 : ((rowsScatter N M C wf).start (ix2 e d) idx 1 + ((rowsScatter N M C wf).window (ix2 e d) 1 : Nat)).toNat = o.val :=
        congrArg (fun f => (f 1).val) heq
      have hb := (hall 0).1
      rw [s0] at h0 hb; rw [s1] at h1
      exact ⟨by omega, Fin.ext (by omega)⟩
    · rintro ⟨hr, rfl⟩
      congr 1
      funext a; refine Fin.ext ?_
      match a with
      | ⟨0, _⟩ =>
        show ((rowsScatter N M C wf).start (ix2 e d) idx 0 + ((rowsScatter N M C wf).window (ix2 e d) 0 : Nat)).toNat = r.val
        rw [s0, hr]; simp
      | ⟨1, _⟩ =>
        show ((rowsScatter N M C wf).start (ix2 e d) idx 1 + ((rowsScatter N M C wf).window (ix2 e d) 1 : Nat)).toNat = d.val
        rw [s1]; simp
  · -- the landing index leaves the operand: the update is dropped, and idx[e, 0] = r < N with d < C is impossible
    rw [dif_neg hall]
    constructor
    · intro h; exact absurd h (by simp)
    · rintro ⟨hr, rfl⟩
      exfalso; apply hall
      intro a
      match a with
      | ⟨0, _⟩ =>
        show 0 ≤ (rowsScatter N M C wf).start (ix2 e d) idx 0 + ((rowsScatter N M C wf).window (ix2 e d) 0 : Nat)
          ∧ (rowsScatter N M C wf).start (ix2 e d) idx 0 + ((rowsScatter N M C wf).window (ix2 e d) 0 : Nat) < (N : Int)
        rw [s0, hr]; have := r.isLt; omega
      | ⟨1, _⟩ =>
        show 0 ≤ (rowsScatter N M C wf).start (ix2 e d) idx 1 + ((rowsScatter N M C wf).window (ix2 e d) 1 : Nat)
          ∧ (rowsScatter N M C wf).start (ix2 e d) idx 1 + ((rowsScatter N M C wf).window (ix2 e d) 1 : Nat) < (C : Int)
        rw [s1]; have := d.isLt; omega

/-- Entry (r, o) of the accumulating row scatter at the ideal instance: the operand's entry (r, o) plus the sum, over
    the update rows e whose signed row index idx[e, 0] is r, of the update's entry (e, o). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ)
    (r : Fin N) (o : Fin C) :
    Host.scatterAdd (F := Ideal) (rowsScatter N M C wf) x idx upd (ix2 r o)
      = x (ix2 r o)
        + ∑ e ∈ Finset.univ.filter (fun e : Fin M => (idx (ix2 e (0 : Fin 1))).toInt = (r.val : Int)),
            upd (ix2 e o) := by
  -- at the ideal instance the scatter is the operand plus the sum of the updates landing on (r, o)
  show x (ix2 r o) + ∑ j ∈ Finset.univ.filter (fun j => (rowsScatter N M C wf).resultIdx? j idx = some (ix2 r o)), upd j = _
  congr 1
  -- both sides as sums of an indicator; the left one split into rows e and columns d
  rw [Finset.sum_filter, sum_idx2, Finset.sum_filter]
  refine Finset.sum_congr rfl fun e _ => ?_
  simp only [resultIdx?_rows_eq_some_iff]
  -- for a row e sent to r the sum over d keeps the term d = o; for any other row every term is 0
  by_cases hr : (idx (ix2 e (0 : Fin 1))).toInt = (r.val : Int)
  · simp only [hr, true_and, if_true]
    rw [Finset.sum_ite_eq']; simp
  · simp [hr]

end Cert.ScatterRows

end
-- ==== Proof.LibCooRows.lean ====
/-
  A sparse matrix in coordinate form times a dense matrix, as a host program spells it, read at an index.

  The sparse matrix has M stored entries: entry e sits at row rows[e], column cols[e], with value vals[e]. Its product
  with a dense [N, C] matrix X is computed as
      gather the rows X[cols[e], :]  (a negative column index counts from the end: cols[e] + n when cols[e] < 0),
      scale row e by vals[e],
      add row e into row rows[e] of an [N, C] matrix of zeros (an index outside [0, N) drops the row).
  Entry (r, o) of the result is therefore the sum, over the stored entries e whose target row is r, of
  weight(e) · X(source(e), o), where weight(e) is an entry of vals, source(e) the gathered row and the target row are
  functions of the integer vectors alone: they do not depend on X or on o. That is what makes the operation commute
  with a product on the right, X ↦ X·W: for real entries
      Σ_k (Σ_e a_e · X(s_e, k)) · W(k) = Σ_e a_e · (Σ_k X(s_e, k) · W(k)).
  All extents are variables.
-/
import Idealize.ShloMosaic.PureOps.Ideal
import Idealize.ShloMosaic.PureOps.Ideal.Laws
import Idealize.ShloMosaic.Lib.ValueIdx
import Idealize.ShloMosaic.Lib.Pipeline.Value
import proofs.«141831_j42391327212275_1_alg».proof.Proof.LibGatherRead
import proofs.«141831_j42391327212275_1_alg».proof.Proof.LibScatterRows

noncomputable section

namespace Cert.CooRows

open Idealize.ShloMosaic Idealize.ShloMosaic.ValueIdx Cert.MipGather Cert.ScatterRows

section Chain
variable {N M C : Nat}
variable (hv : (⟨1, ![M]⟩ : Shape).BroadcastsInDim ⟨2, ![M, 1]⟩ (![0] : Fin 1 → Fin 2))
variable (hc : (⟨2, ![M, 1]⟩ : Shape).BroadcastsInDim ⟨2, ![M, C]⟩ (![0, 1] : Fin 2 → Fin 2))
variable (hz : (⟨0, ![]⟩ : Shape).BroadcastsInDim ⟨2, ![N, C]⟩ (![] : Fin 0 → Fin 2))
variable (hi : (⟨0, ![]⟩ : Shape).BroadcastsInDim ⟨1, ![M]⟩ (![] : Fin 0 → Fin 1))
variable (gwf : GatherDims.WF ⟨2, ![N, C]⟩ ⟨2, ![M, 1]⟩ ⟨2, ![M, C]⟩ [1] [0] [] [0] [] 1 ![1, C])
variable (swf : ScatterDims.WF ⟨2, ![N, C]⟩ ⟨2, ![M, 1]⟩ ⟨2, ![M, C]⟩ [1] [0] [0] 1)
variable (n : BitVec 32)
variable (rows cols : IVec ⟨1, ![M]⟩ 32) (vals : FVec Ideal ⟨1, ![M]⟩ .f32)

/-- The column indices as the gather reads them: cols[e] + n where cols[e] is negative, cols[e] elsewhere, laid out
    as an [M, 1] column. -/
def colIdx : IVec ⟨2, ![M, 1]⟩ 32 :=
  broadcastInDim ⟨2, ![M, 1]⟩ ![0] hv
    (select (cmpi .slt cols (broadcastInDim ⟨1, ![M]⟩ ![] hi (constantI ⟨0, ![]⟩ 32 0#32)))
      (addi cols (broadcastInDim ⟨1, ![M]⟩ ![] hi (constantI ⟨0, ![]⟩ 32 n))) cols)

/-- The sparse-times-dense product as the host operations compute it. -/
def spmm (X : FVec Ideal ⟨2, ![N, C]⟩ .f32) : FVec Ideal ⟨2, ![N, C]⟩ .f32 :=
  Host.scatterAdd (F := Ideal) (rowsScatter N M C swf)
    (broadcastInDim ⟨2, ![N, C]⟩ ![] hz (constant (F := Ideal) ⟨0, ![]⟩ .f32 0x00000000#32))
    (broadcastInDim ⟨2, ![M, 1]⟩ ![0] hv rows)
    (mulf (F := Ideal) (broadcastInDim ⟨2, ![M, C]⟩ ![0, 1] hc (broadcastInDim ⟨2, ![M, 1]⟩ ![0] hv vals))
      (Host.gather (rowsDims N M C gwf) X (colIdx hv hi n cols)))

/-- The row stored entry e is added to, as a signed integer (it lands nowhere when this is outside [0, N)). -/
def target (e : Fin M) : Int := ((broadcastInDim ⟨2, ![M, 1]⟩ ![0] hv rows) (ix2 e (0 : Fin 1))).toInt

/-- The row of the dense matrix stored entry e reads: its column index, clamped into [0, N − 1]. -/
def source (hN : 0 < N) (e : Fin M) : Fin N :=
  ⟨min ((colIdx hv hi n cols) (ix2 e (0 : Fin 1))).toInt.toNat (N - 1), by omega⟩

/-- The value of stored entry e. -/
def weight (e : Fin M) : EReal := (broadcastInDim ⟨2, ![M, 1]⟩ ![0] hv vals) (ix2 e (0 : Fin 1))

/-- The value of a stored entry is an entry of vals. -/
theorem weight_entry (e : Fin M) : ∃ k, weight hv vals e = vals k := ⟨_, rfl⟩

/-- Entry (r, o) of the product: the sum over the stored entries of row r of weight · X(source, o). -/
theorem spmm_apply (hN : 0 < N) (X : FVec Ideal ⟨2, ![N, C]⟩ .f32) (r : Fin N) (o : Fin C) :
    spmm hv hc hz hi gwf swf n rows cols vals X (ix2 r o)
      = ∑ e ∈ Finset.univ.filter (fun e : Fin M => target hv rows e = (r.val : Int)),
          weight hv vals e * X (ix2 (source hv hi n cols hN e) o) := by
  unfold spmm
  rw [scatterAdd_rows_apply]
  have h0 : broadcastInDim ⟨2, ![N, C]⟩ ![] hz (constant (F := Ideal) ⟨0, ![]⟩ .f32 0x00000000#32) (ix2 r o) = 0 :=
    Ideal.ofBits_zero_f32
  rw [h0, zero_add]
  refine Finset.sum_congr rfl fun e _ => ?_
  show (broadcastInDim ⟨2, ![M, C]⟩ ![0, 1] hc (broadcastInDim ⟨2, ![M, 1]⟩ ![0] hv vals)) (ix2 e o)
      * Host.gather (rowsDims N M C gwf) X (colIdx hv hi n cols) (ix2 e o) = _
  rw [gather_rows_apply hN]
  refine congrArg (· * X (ix2 (source hv hi n cols hN e) o)) ?_
  refine broadcastInDim_apply _ hc _ (ix2 e o) (ix2 e (0 : Fin 1)) fun a => ?_
  match a with
  | ⟨0, _⟩ =>
    show e.val = if M = 1 then 0 else e.val
    split
    · have := e.isLt; omega
    · rfl
  | ⟨1, _⟩ =>
    show 0 = if (1 : Nat) = 1 then 0 else o.val
    rw [if_pos rfl]

end Chain

/-! ## The product on the right passes through the weighted sum of rows -/

/-- The coercion of the reals into the extended reals commutes with a finite sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Over the reals: distribute both ways, exchange the two sums, reassociate each product. -/
theorem real_sum_rows_mul_right {E ι : Type} {D : Nat} (S : Finset E) (a : E → ℝ) (s : E → ι) (X : ι → Fin D → ℝ)
    (W : Fin D → ℝ) :
    ∑ k : Fin D, (∑ e ∈ S, a e * X (s e) k) * W k = ∑ e ∈ S, a e * ∑ k : Fin D, X (s e) k * W k := by
  simp only [Finset.mul_sum, Finset.sum_mul]
  rw [Finset.sum_comm]
  exact Finset.sum_congr rfl fun e _ => Finset.sum_congr rfl fun k _ => mul_assoc _ _ _

/-- For real entries, contracting a weighted sum of rows of X against a vector W is the weighted sum of the rows'
    contractions: Σ_k (Σ_{e ∈ S} a_e · X(s_e, k)) · W(k) = Σ_{e ∈ S} a_e · (Σ_k X(s_e, k) · W(k)). On the extended
    reals this holds because every term is the image of a real number and the coercion commutes with finite sums and
    with products; at an infinite entry a product would not distribute over a sum. -/
theorem sum_rows_mul_right {E ι : Type} {D : Nat} (S : Finset E) (a : E → EReal) (s : E → ι) (X : ι → Fin D → EReal)
    (W : Fin D → EReal) (ha : ∀ e, ∃ r : ℝ, a e = (r : EReal)) (hX : ∀ i k, ∃ r : ℝ, X i k = (r : EReal))
    (hW : ∀ k, ∃ r : ℝ, W k = (r : EReal)) :
    ∑ k : Fin D, (∑ e ∈ S, a e * X (s e) k) * W k = ∑ e ∈ S, a e * ∑ k : Fin D, X (s e) k * W k := by
  choose ar har using ha
  choose Xr hXr using hX
  choose Wr hWr using hW
  simp only [har, hXr, hWr]
  have key := congrArg (fun x : ℝ => (x : EReal)) (real_sum_rows_mul_right S ar s Xr Wr)
  simp only [coe_sum, EReal.coe_mul] at key
  exact key

end Cert.CooRows

end
-- ==== Proof.RegionInputs.lean ====
/-
  The two matrices the region finds, as the host operations in front of it leave them: the left one is the two
  sparse-times-dense products A₁·X and A₂·X set side by side (256 = 128 + 128 columns), the right one the two weight
  matrices stacked (256 = 128 + 128 rows).
-/
import proofs.«141831_j42391327212275_1_alg».proof.Proof.Gen.KernelIdeal.Frame
import proofs.«141831_j42391327212275_1_alg».proof.Proof.LibCooRows
import Idealize.ShloMosaic.Lib.StableHlo.Run

noncomputable section

namespace Cert.KernelIdeal.RegionInputs

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The left matrix: the two sparse-times-dense products side by side. -/
theorem left_matrix (c : Dev nD) :
    (V m c main_v26 : S50000x256.Idx → EReal)
      = concatenate S50000x256 1
          [⟨S50000x128, Cert.CooRows.spmm (N := 50000) (M := 800000) (C := 128) Facts₀.bcast_S800000_S800000x1_0 Facts₀.bcast_S800000x1_S800000x128_0_1 Facts₀.bcast_S_S50000x128
            Facts₀.bcast_S_S800000 Facts₀.gather_S50000x128_S800000x1_S800000x128_1_0_n_n_0_1_1128_wf Facts₀.scatter_S50000x128_S800000x1_S800000x128_1_0_0_1_wf 50000#32
            (m ((c : Thread nD τ).loc main_arg1)) (m ((c : Thread nD τ).loc main_arg2)) (m ((c : Thread nD τ).loc main_arg3))
            (m ((c : Thread nD τ).loc main_arg0))⟩,
           ⟨S50000x128, Cert.CooRows.spmm (N := 50000) (M := 800000) (C := 128) Facts₀.bcast_S800000_S800000x1_0 Facts₀.bcast_S800000x1_S800000x128_0_1 Facts₀.bcast_S_S50000x128
            Facts₀.bcast_S_S800000 Facts₀.gather_S50000x128_S800000x1_S800000x128_1_0_n_n_0_1_1128_wf Facts₀.scatter_S50000x128_S800000x1_S800000x128_1_0_0_1_wf 50000#32
            (m ((c : Thread nD τ).loc main_arg4)) (m ((c : Thread nD τ).loc main_arg5)) (m ((c : Thread nD τ).loc main_arg6))
            (m ((c : Thread nD τ).loc main_arg0))⟩]
          Facts₀.concatenates_S50000x128_S50000x128_S50000x256_d1 := by
  dsimp only [Gen.V, Gen.hostOps0]
  after_results_simp
  rfl

/-- The right matrix: the two weight matrices stacked. -/
theorem right_matrix (c : Dev nD) :
    (V m c main_v27 : S256x128.Idx → EReal)
      = concatenate S256x128 0
          [⟨S128x128, m ((c : Thread nD τ).loc main_arg7)⟩, ⟨S128x128, m ((c : Thread nD τ).loc main_arg8)⟩]
          Facts₀.concatenates_S128x128_S128x128_S256x128_d0 := by
  dsimp only [Gen.V, Gen.hostOps0]
  after_results_simp
  rfl

end Cert.KernelIdeal.RegionInputs

end
-- ==== Proof.ProjectedRows.lean ====
/-
  The reference's result, read as relu(A₁·(X·W₁) + A₂·(X·W₂)).

  The reference first projects the dense input, P₁ = X·W₁ and P₂ = X·W₂ (entry (i, o) is Σ_k X(i, k)·Wᵢ(k, o)), then
  aggregates each projection with its relation's sparse matrix, adds the two and takes the maximum with zero.
-/
import proofs.«141831_j42391327212275_1_alg».proof.Proof.Gen.ReferenceIdeal.Read
import proofs.«141831_j42391327212275_1_alg».proof.Proof.LibCooRows

noncomputable section

namespace Cert.ReferenceIdeal.ProjectedRows

open Cert.ReferenceIdeal Cert.ReferenceIdeal.Gen Idealize.ShloMosaic Idealize.ShloMosaic.ValueIdx
open Cert.CooRows

/-- Entry (i, o) of the first projection X·W₁. -/
theorem projection₁_apply (x0 : FVec Ideal S50000x128 .f32) (x7 : FVec Ideal S128x128 .f32) (i : Fin 50000) (o : Fin 128) :
    Read.val_main_v0 (F := Ideal) x0 x7 (ix2 i o) = ∑ k : Fin 128, x0 (ix2 i k) * x7 (ix2 k o) := by
  rw [Read.val_main_v0_apply]
  refine Finset.sum_congr rfl fun k _ => ?_
  have el : Read.lidx_main_v0 (ix2 i o) k = ix2 i k :=
    funext fun a => Fin.ext (by match a with | ⟨0, _⟩ => rfl | ⟨1, _⟩ => rfl)
  have er : Read.ridx_main_v0 (ix2 i o) k = ix2 k o :=
    funext fun a => Fin.ext (by match a with | ⟨0, _⟩ => rfl | ⟨1, _⟩ => rfl)
  rw [el, er]

/-- Entry (i, o) of the second projection X·W₂. -/
theorem projection₂_apply (x0 : FVec Ideal S50000x128 .f32) (x8 : FVec Ideal S128x128 .f32) (i : Fin 50000) (o : Fin 128) :
    Read.val_main_v1 (F := Ideal) x0 x8 (ix2 i o) = ∑ k : Fin 128, x0 (ix2 i k) * x8 (ix2 k o) := by
  rw [Read.val_main_v1_apply]
  refine Finset.sum_congr rfl fun k _ => ?_
  have el : Read.lidx_main_v1 (ix2 i o) k = ix2 i k :=
    funext fun a => Fin.ext (by match a with | ⟨0, _⟩ => rfl | ⟨1, _⟩ => rfl)
  have er : Read.ridx_main_v1 (ix2 i o) k = ix2 k o :=
    funext fun a => Fin.ext (by match a with | ⟨0, _⟩ => rfl | ⟨1, _⟩ => rfl)
  rw [el, er]

/-- The first relation's host chain — normalise the column indices, gather, scale, scatter-add into zeros — applied to
    the first projection is the sparse product A₁·P₁. Both sides are the same operations on the same operands. -/
theorem aggregate₁_eq (x0 : FVec Ideal S50000x128 .f32) (x1 x2 : IVec S800000 32) (x3 : FVec Ideal S800000 .f32)
    (x7 : FVec Ideal S128x128 .f32) :
    Read.val_main_v14 (F := Ideal) x0 x1 x2 x3 x7
      = spmm (N := 50000) (M := 800000) (C := 128) Facts₀.bcast_S800000_S800000x1_0 Facts₀.bcast_S800000x1_S800000x128_0_1 Facts₀.bcast_S_S50000x128 Facts₀.bcast_S_S800000
          Facts₀.gather_S50000x128_S800000x1_S800000x128_1_0_n_n_0_1_1128_wf Facts₀.scatter_S50000x128_S800000x1_S800000x128_1_0_0_1_wf 50000#32 x1 x2 x3 (Read.val_main_v0 (F := Ideal) x0 x7) := by
  unfold Read.val_main_v14 Read.val_main_v12 Read.val_main_cst Read.val_main_v13 Read.val_main_v11 Read.val_main_v10
    Read.val_main_v2 Read.val_main_v9 Read.val_main_v8 Read.val_main_v7 Read.val_main_v4 Read.val_main_v3 Read.val_main_c
    Read.val_main_v6 Read.val_main_v5 Read.val_main_c_0 spmm colIdx
  rfl

/-- The second relation likewise: A₂·P₂. -/
theorem aggregate₂_eq (x0 : FVec Ideal S50000x128 .f32) (x4 x5 : IVec S800000 32) (x6 : FVec Ideal S800000 .f32)
    (x8 : FVec Ideal S128x128 .f32) :
    Read.val_main_v27 (F := Ideal) x0 x4 x5 x6 x8
      = spmm (N := 50000) (M := 800000) (C := 128) Facts₀.bcast_S800000_S800000x1_0 Facts₀.bcast_S800000x1_S800000x128_0_1 Facts₀.bcast_S_S50000x128 Facts₀.bcast_S_S800000
          Facts₀.gather_S50000x128_S800000x1_S800000x128_1_0_n_n_0_1_1128_wf Facts₀.scatter_S50000x128_S800000x1_S800000x128_1_0_0_1_wf 50000#32 x4 x5 x6 (Read.val_main_v1 (F := Ideal) x0 x8) := by
  unfold Read.val_main_v27 Read.val_main_v25 Read.val_main_cst_3 Read.val_main_v26 Read.val_main_v24 Read.val_main_v23
    Read.val_main_v15 Read.val_main_v22 Read.val_main_v21 Read.val_main_v20 Read.val_main_v17 Read.val_main_v16 Read.val_main_c_1
    Read.val_main_v19 Read.val_main_v18 Read.val_main_c_2 spmm colIdx
  rfl

/-- The reference's result is relu of the sum of the two aggregated projections. -/
theorem result_eq (x0 : FVec Ideal S50000x128 .f32) (x1 x2 : IVec S800000 32) (x3 : FVec Ideal S800000 .f32)
    (x4 x5 : IVec S800000 32) (x6 : FVec Ideal S800000 .f32) (x7 x8 : FVec Ideal S128x128 .f32) :
    Read.val_main_v29 (F := Ideal) x0 x1 x2 x3 x4 x5 x6 x7 x8
      = fun i => max
          (spmm (N := 50000) (M := 800000) (C := 128) Facts₀.bcast_S800000_S800000x1_0 Facts₀.bcast_S800000x1_S800000x128_0_1 Facts₀.bcast_S_S50000x128 Facts₀.bcast_S_S800000
          Facts₀.gather_S50000x128_S800000x1_S800000x128_1_0_n_n_0_1_1128_wf Facts₀.scatter_S50000x128_S800000x1_S800000x128_1_0_0_1_wf 50000#32 x1 x2 x3 (Read.val_main_v0 (F := Ideal) x0 x7) i
            + spmm (N := 50000) (M := 800000) (C := 128) Facts₀.bcast_S800000_S800000x1_0 Facts₀.bcast_S800000x1_S800000x128_0_1 Facts₀.bcast_S_S50000x128 Facts₀.bcast_S_S800000
          Facts₀.gather_S50000x128_S800000x1_S800000x128_1_0_n_n_0_1_1128_wf Facts₀.scatter_S50000x128_S800000x1_S800000x128_1_0_0_1_wf 50000#32 x4 x5 x6 (Read.val_main_v1 (F := Ideal) x0 x8) i)
          (Ideal.ofBits .f32 0x00000000#32) := by
  funext i
  rw [Read.val_main_v29_apply, Read.val_main_v28_apply, Read.val_main_call0_v0_apply, Read.val_main_call0_cst_apply,
    aggregate₁_eq, aggregate₂_eq]
  rfl

end Cert.ReferenceIdeal.ProjectedRows

end
-- ==== Proof.Linearity.lean ====
/-
  Projecting after aggregating is aggregating after projecting.

  Write A₁, A₂ for the two sparse matrices, X for the dense [N, 128] input and W₁, W₂ for the two [128, 128] weight
  matrices. One program forms Z = [A₁·X | A₂·X] (two blocks of 128 columns side by side), stacks W = [W₁ ; W₂]
  (two blocks of 128 rows) and takes relu(Z · W); the other takes relu(A₁·(X·W₁) + A₂·(X·W₂)). Entry (r, o):
      Σ_{k < 256} Z(r, k) · W(k, o) = Σ_{k < 128} (A₁X)(r, k) · W₁(k, o) + Σ_{k < 128} (A₂X)(r, k) · W₂(k, o)
  by splitting the contracted axis at 128 (no arithmetic law beyond regrouping a finite sum), and for each relation
      Σ_k (Σ_e a_e · X(s_e, k)) · Wᵢ(k, o) = Σ_e a_e · (Σ_k X(s_e, k) · Wᵢ(k, o)),
  which distributes a product over a sum and therefore needs the entries of X, of the stored values a and of Wᵢ to be
  real numbers (it fails at infinite entries of the extended reals).
-/
import proofs.«141831_j42391327212275_1_alg».proof.Proof.BlockProduct
import proofs.«141831_j42391327212275_1_alg».proof.Proof.LibCooRows

noncomputable section

namespace Cert.Linearity

open Idealize.ShloMosaic Idealize.ShloMosaic.ValueIdx Cert.CooRows Cert.KernelIdeal.BlockProduct

section
variable {N M : Nat}
variable (hv : (⟨1, ![M]⟩ : Shape).BroadcastsInDim ⟨2, ![M, 1]⟩ (![0] : Fin 1 → Fin 2))
variable (hc : (⟨2, ![M, 1]⟩ : Shape).BroadcastsInDim ⟨2, ![M, 128]⟩ (![0, 1] : Fin 2 → Fin 2))
variable (hz : (⟨0, ![]⟩ : Shape).BroadcastsInDim ⟨2, ![N, 128]⟩ (![] : Fin 0 → Fin 2))
variable (hi : (⟨0, ![]⟩ : Shape).BroadcastsInDim ⟨1, ![M]⟩ (![] : Fin 0 → Fin 1))
variable (gwf : GatherDims.WF ⟨2, ![N, 128]⟩ ⟨2, ![M, 1]⟩ ⟨2, ![M, 128]⟩ [1] [0] [] [0] [] 1 ![1, 128])
variable (swf : ScatterDims.WF ⟨2, ![N, 128]⟩ ⟨2, ![M, 1]⟩ ⟨2, ![M, 128]⟩ [1] [0] [0] 1)
variable (n : BitVec 32)

/-- One relation: contracting the aggregated rows A·X against column o of a weight matrix W is aggregating the rows
    of X·W, for real entries. P is X·W given entry by entry. -/
theorem spmm_mul_right (hN : 0 < N) (rows cols : IVec ⟨1, ![M]⟩ 32) (vals : FVec Ideal ⟨1, ![M]⟩ .f32)
    (X : FVec Ideal ⟨2, ![N, 128]⟩ .f32) (W : FVec Ideal ⟨2, ![128, 128]⟩ .f32) (P : FVec Ideal ⟨2, ![N, 128]⟩ .f32)
    (hP : ∀ (i : Fin N) (o : Fin 128), P (ix2 i o) = ∑ k : Fin 128, X (ix2 i k) * W (ix2 k o))
    (hvals : ∀ i, ∃ r : ℝ, vals i = (r : EReal)) (hX : ∀ i, ∃ r : ℝ, X i = (r : EReal))
    (hW : ∀ i, ∃ r : ℝ, W i = (r : EReal)) (r : Fin N) (o : Fin 128) :
    ∑ k : Fin 128, spmm hv hc hz hi gwf swf n rows cols vals X (ix2 r k) * W (ix2 k o)
      = spmm hv hc hz hi gwf swf n rows cols vals P (ix2 r o) := by
  rw [spmm_apply hv hc hz hi gwf swf n rows cols vals hN P r o]
  simp only [spmm_apply hv hc hz hi gwf swf n rows cols vals hN X r, hP]
  exact sum_rows_mul_right _ (weight hv vals) (source hv hi n cols hN) (fun i k => X (ix2 i k)) (fun k => W (ix2 k o))
    (fun e => by obtain ⟨k, hk⟩ := weight_entry hv vals e; rw [hk]; exact hvals k)
    (fun i k => hX _) (fun k => hW _)

variable (hcatZ : Shape.Concatenates [(⟨2, ![N, 128]⟩ : Shape), ⟨2, ![N, 128]⟩] ⟨2, ![N, 256]⟩ (1 : Fin 2))
variable (hcatW : Shape.Concatenates [(⟨2, ![128, 128]⟩ : Shape), ⟨2, ![128, 128]⟩] ⟨2, ![256, 128]⟩ (0 : Fin 2))

/-- Two matrices side by side, read in the left half and in the right half. -/
theorem beside_left (A B : (⟨2, ![N, 128]⟩ : Shape).Idx → EReal) (r : Fin N) (k : Fin 128) :
    concatenate ⟨2, ![N, 256]⟩ (1 : Fin 2) [⟨⟨2, ![N, 128]⟩, A⟩, ⟨⟨2, ![N, 128]⟩, B⟩] hcatZ
      (ix2 r (Fin.castAdd 128 k : Fin 256)) = A (ix2 r k) :=
  concatenate_pair_apply_left (1 : Fin 2) A B hcatZ (ix2 r (Fin.castAdd 128 k : Fin 256)) rfl (ix2 r k) fun b => by
    match b with
    | ⟨0, _⟩ => rfl
    | ⟨1, _⟩ => rfl

theorem beside_right (A B : (⟨2, ![N, 128]⟩ : Shape).Idx → EReal) (r : Fin N) (k : Fin 128) :
    concatenate ⟨2, ![N, 256]⟩ (1 : Fin 2) [⟨⟨2, ![N, 128]⟩, A⟩, ⟨⟨2, ![N, 128]⟩, B⟩] hcatZ
      (ix2 r (Fin.natAdd 128 k : Fin 256)) = B (ix2 r k) :=
  concatenate_pair_apply_right (1 : Fin 2) A B hcatZ (ix2 r (Fin.natAdd 128 k : Fin 256)) rfl rfl (ix2 r k)
    (fun b hb => by
      match b with
      | ⟨0, _⟩ => rfl
      | ⟨1, _⟩ => exact absurd rfl hb)
    (by show k.val + 128 = 128 + k.val; omega)

/-- Two matrices stacked, read in the upper half and in the lower half. -/
theorem stacked_upper (A B : (⟨2, ![128, 128]⟩ : Shape).Idx → EReal) (k o : Fin 128) :
    concatenate ⟨2, ![256, 128]⟩ (0 : Fin 2) [⟨⟨2, ![128, 128]⟩, A⟩, ⟨⟨2, ![128, 128]⟩, B⟩] hcatW
      (ix2 (Fin.castAdd 128 k : Fin 256) o) = A (ix2 k o) :=
  concatenate_pair_apply_left (0 : Fin 2) A B hcatW (ix2 (Fin.castAdd 128 k : Fin 256) o) rfl (ix2 k o) fun b => by
    match b with
    | ⟨0, _⟩ => rfl
    | ⟨1, _⟩ => rfl

theorem stacked_lower (A B : (⟨2, ![128, 128]⟩ : Shape).Idx → EReal) (k o : Fin 128) :
    concatenate ⟨2, ![256, 128]⟩ (0 : Fin 2) [⟨⟨2, ![128, 128]⟩, A⟩, ⟨⟨2, ![128, 128]⟩, B⟩] hcatW
      (ix2 (Fin.natAdd 128 k : Fin 256) o) = B (ix2 k o) :=
  concatenate_pair_apply_right (0 : Fin 2) A B hcatW (ix2 (Fin.natAdd 128 k : Fin 256) o) rfl rfl (ix2 k o)
    (fun b hb => by
      match b with
      | ⟨0, _⟩ => exact absurd rfl hb
      | ⟨1, _⟩ => rfl)
    (by show k.val + 128 = 128 + k.val; omega)

/-- The two programs' results agree entry by entry: relu([A₁X | A₂X] · [W₁ ; W₂]) = relu(A₁(XW₁) + A₂(XW₂)),
    for real X, stored values and weights. P₁ and P₂ are X·W₁ and X·W₂ given entry by entry. -/
theorem relu_projected (hN : 0 < N) (rows₁ cols₁ : IVec ⟨1, ![M]⟩ 32) (vals₁ : FVec Ideal ⟨1, ![M]⟩ .f32)
    (rows₂ cols₂ : IVec ⟨1, ![M]⟩ 32) (vals₂ : FVec Ideal ⟨1, ![M]⟩ .f32)
    (X : FVec Ideal ⟨2, ![N, 128]⟩ .f32) (W₁ W₂ : FVec Ideal ⟨2, ![128, 128]⟩ .f32)
    (P₁ P₂ : FVec Ideal ⟨2, ![N, 128]⟩ .f32)
    (hP₁ : ∀ (i : Fin N) (o : Fin 128), P₁ (ix2 i o) = ∑ k : Fin 128, X (ix2 i k) * W₁ (ix2 k o))
    (hP₂ : ∀ (i : Fin N) (o : Fin 128), P₂ (ix2 i o) = ∑ k : Fin 128, X (ix2 i k) * W₂ (ix2 k o))
    (hX : ∀ i, ∃ r : ℝ, X i = (r : EReal))
    (hv₁ : ∀ i, ∃ r : ℝ, vals₁ i = (r : EReal)) (hv₂ : ∀ i, ∃ r : ℝ, vals₂ i = (r : EReal))
    (hW₁ : ∀ i, ∃ r : ℝ, W₁ i = (r : EReal)) (hW₂ : ∀ i, ∃ r : ℝ, W₂ i = (r : EReal)) :
    reluProd
        (concatenate ⟨2, ![N, 256]⟩ (1 : Fin 2)
          [⟨⟨2, ![N, 128]⟩, spmm hv hc hz hi gwf swf n rows₁ cols₁ vals₁ X⟩,
           ⟨⟨2, ![N, 128]⟩, spmm hv hc hz hi gwf swf n rows₂ cols₂ vals₂ X⟩] hcatZ)
        (concatenate ⟨2, ![256, 128]⟩ (0 : Fin 2) [⟨⟨2, ![128, 128]⟩, W₁⟩, ⟨⟨2, ![128, 128]⟩, W₂⟩] hcatW)
      = fun i => max (spmm hv hc hz hi gwf swf n rows₁ cols₁ vals₁ P₁ i + spmm hv hc hz hi gwf swf n rows₂ cols₂ vals₂ P₂ i)
          (Ideal.ofBits .f32 0x00000000#32) := by
  funext i
  obtain ⟨r, o, rfl⟩ : ∃ (r : Fin N) (o : Fin 128), i = ix2 r o := ⟨i 0, i 1, eq_ix2 i⟩
  rw [reluProd_apply]
  refine congrArg (fun z => max z (Ideal.ofBits .f32 0x00000000#32)) ?_
  refine (Fin.sum_univ_add (a := 128) (b := 128) _).trans ?_
  simp only [beside_left, beside_right, stacked_upper, stacked_lower]
  rw [spmm_mul_right hv hc hz hi gwf swf n hN rows₁ cols₁ vals₁ X W₁ P₁ hP₁ hv₁ hX hW₁ r o,
    spmm_mul_right hv hc hz hi gwf swf n hN rows₂ cols₂ vals₂ X W₂ P₂ hP₂ hv₂ hX hW₂ r o]

end

end Cert.Linearity

end
-- ==== Proof.RealInputs.lean ====
/-
  From the precondition to real entries. The precondition says that every entry x of each float input satisfies
  |x| < +∞; an extended real with that property is a real number.
-/
import proofs.«141831_j42391327212275_1_alg».proof.Pre_finite_inputs
import Idealize.ShloMosaic.PureOps.Ideal
import Idealize.ShloMosaic.Lib.ValueIdx
import Idealize.ShloMosaic.Lib.ReduceAll

noncomputable section

namespace Cert.RealInputs

open Idealize.ShloMosaic Idealize.ShloMosaic.ValueIdx

/-- An extended real x whose absolute value max x (-x) lies strictly below +∞ is a real number: for x = ⊥ and for
    x = ⊤ the larger of x and -x is ⊤, which is not below ⊤. -/
private theorem real_of_abs_lt_top (x : EReal) (h : max x (-x) < ⊤) : ∃ r : ℝ, x = (r : EReal) := by
  induction x using EReal.rec with
  | bot => simp at h
  | coe r => exact ⟨r, rfl⟩
  | top => simp at h

/-- The one-bit word of a truth value is 1 exactly when the value is true. -/
private theorem ofBool_eq_one {b : Bool} : BitVec.ofBool b = 1#1 ↔ b = true := by cases b <;> decide

/-- The binary32 pattern 0x7F800000 (sign clear, exponent all ones, fraction zero) denotes +∞. -/
private theorem inf_eq_top : Ideal.ofBits .f32 0x7F800000#32 = (⊤ : EReal) := by
  simp [Ideal.ofBits, Ideal.ieee]

/-- The entry fact: if the ordered comparison |x| < +∞ yields the bit 1, then x is a real number. At extended reals
    |x| is max x (-x) and the comparison is the order's own, so the bit says max x (-x) < ⊤. -/
private theorem real_of_cmp (x : Ideal .f32)
    (h : FloatOps.cmpf (F := Ideal) .olt (FloatOps.hostAbsf x) (FloatOps.ofBits .f32 0x7F800000#32) = 1#1) :
    ∃ r : ℝ, x = (r : EReal) := by
  refine real_of_abs_lt_top x ?_
  have h' : Ideal.cmp .olt (max x (-x)) (Ideal.ofBits .f32 0x7F800000#32) = 1#1 := h
  rw [inf_eq_top] at h'
  simp only [Ideal.cmp, ofBool_eq_one, decide_eq_true_eq] at h'
  exact h'

/-- For an array x of any shape S: if the conjunction over all entries of the bits (|x i| < +∞) is 1, then every
    entry of x is a real number. A conjunction that is 1 met only 1s, and the bit at i compares |x i| with the scalar
    +∞ broadcast to S. -/
private theorem real_of_all {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ix0 = 1#1) :
    ∀ i, ∃ r : ℝ, x i = (r : EReal) := by
  intro i
  -- The result of a reduction over every axis has a single index.
  haveI : Subsingleton Cert.Pre_finite_inputs.S_.Idx := ⟨fun a b => funext fun d => d.elim0⟩
  exact real_of_cmp (x i) (Host.reduce_andi_all _ _ hr hu ix0 e i)

/-- Under the precondition each of the five float inputs has only real entries. -/
theorem real_of_pre [Cert.Pre_finite_inputs.Facts]
    (x0 : FVec Ideal Cert.Pre_finite_inputs.S50000x128 .f32)
    (x1 x2 : IVec Cert.Pre_finite_inputs.S800000 32) (x3 : FVec Ideal Cert.Pre_finite_inputs.S800000 .f32)
    (x4 x5 : IVec Cert.Pre_finite_inputs.S800000 32) (x6 : FVec Ideal Cert.Pre_finite_inputs.S800000 .f32)
    (x7 x8 : FVec Ideal Cert.Pre_finite_inputs.S128x128 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x3 i = (r : EReal)) ∧ (∀ i, ∃ r : ℝ, x6 i = (r : EReal))
      ∧ (∀ i, ∃ r : ℝ, x7 i = (r : EReal)) ∧ (∀ i, ∃ r : ℝ, x8 i = (r : EReal)) := by
  -- The precondition is one bit; read it at the only index of the rank-0 result.
  have h0 := congrFun h ix0
  dsimp only [Cert.Pre_finite_inputs.fn, Cert.Pre_finite_inputs.fn_part1] at h0
  -- The bit is (((a0 ∧ a3) ∧ a6) ∧ a7) ∧ a8, where a_k is the conjunction over all entries of |x_k i| < +∞;
  -- a conjunction of two bits is 1 exactly when both are.
  obtain ⟨h0367, h8⟩ := IntOp.andi_eq_one.1 h0
  obtain ⟨h036, h7⟩ := IntOp.andi_eq_one.1 h0367
  obtain ⟨h03, h6⟩ := IntOp.andi_eq_one.1 h036
  obtain ⟨h00, h3⟩ := IntOp.andi_eq_one.1 h03
  exact ⟨real_of_all _ _ _ x0 h00, real_of_all _ _ _ x3 h3, real_of_all _ _ _ x6 h6,
    real_of_all _ _ _ x7 h7, real_of_all _ _ _ x8 h8⟩

end Cert.RealInputs

end
-- ==== Proof.lean ====
/-
  A relational graph convolution: two relations, each a sparse matrix Aᵢ in coordinate form (800000 stored entries)
  acting on the rows of a dense [50000, 128] input X, each with its own [128, 128] weight matrix Wᵢ.

  The reference computes relu(A₁·(X·W₁) + A₂·(X·W₂)): project, aggregate, add. The kernel's entry point aggregates first
  on the host, Zᵢ = Aᵢ·X, sets the two results side by side, Z = [Z₁ | Z₂], stacks the weights, W = [W₁ ; W₂], and
  computes relu(Z · W) in ten blocks of 5000 rows on the matrix unit. At the ideal instance (floats are extended reals,
  a change of float format is the identity) the two agree entry by entry for finite inputs:
      Σ_{k<256} Z(r, k)·W(k, o) = Σ_{k<128} (A₁X)(r, k)·W₁(k, o) + Σ_{k<128} (A₂X)(r, k)·W₂(k, o)
  and (AᵢX)·Wᵢ = Aᵢ·(XWᵢ), a product distributed over a finite sum of real numbers. The precondition (every float input
  finite) is used exactly there.

  The modules: BlockProduct (what one grid point stores, entry by entry), WholeProduct (the ten blocks tile the result),
  RegionInputs (the two matrices the host operations hand to the region), LibGatherRead / LibScatterRows / LibCooRows
  (a gather of rows, an accumulating scatter of rows, and the sparse product they make, read at an index),
  ProjectedRows (the reference's result in the same terms), Linearity (the law above), RealInputs (finite inputs are
  real numbers).
-/
import proofs.«141831_j42391327212275_1_alg».proof.Defs
import proofs.«141831_j42391327212275_1_alg».proof.Proof.Gen.Kernel
import proofs.«141831_j42391327212275_1_alg».proof.Proof.Gen.Kernel.Skeleton
import proofs.«141831_j42391327212275_1_alg».proof.Proof.Gen.Kernel.Launch
import proofs.«141831_j42391327212275_1_alg».proof.Proof.Gen.Kernel.Points
import proofs.«141831_j42391327212275_1_alg».proof.Proof.Gen.Kernel.Frame
import proofs.«141831_j42391327212275_1_alg».proof.Proof.Gen.KernelIdeal
import proofs.«141831_j42391327212275_1_alg».proof.Proof.Gen.KernelIdeal.Skeleton
import proofs.«141831_j42391327212275_1_alg».proof.Proof.Gen.KernelIdeal.Launch
import proofs.«141831_j42391327212275_1_alg».proof.Proof.Gen.KernelIdeal.Points
import proofs.«141831_j42391327212275_1_alg».proof.Proof.Gen.KernelIdeal.Frame
import proofs.«141831_j42391327212275_1_alg».proof.Proof.Gen.ReferenceIdeal
import proofs.«141831_j42391327212275_1_alg».proof.Proof.Gen.Pre_finite_inputs
import proofs.«141831_j42391327212275_1_alg».proof.Proof.Gen.KernelIdeal.Value
import proofs.«141831_j42391327212275_1_alg».proof.Proof.Gen.ReferenceIdeal.Run
import proofs.«141831_j42391327212275_1_alg».proof.Proof.Gen.ReferenceIdeal.Read
import proofs.«141831_j42391327212275_1_alg».proof.Proof.WholeProduct
import proofs.«141831_j42391327212275_1_alg».proof.Proof.RegionInputs
import proofs.«141831_j42391327212275_1_alg».proof.Proof.ProjectedRows
import proofs.«141831_j42391327212275_1_alg».proof.Proof.Linearity
import proofs.«141831_j42391327212275_1_alg».proof.Proof.RealInputs
import Idealize.ShloMosaic.Adequacy
import Idealize.ShloMosaic.Init

noncomputable section

namespace Cert.Proof

open Idealize.ShloMosaic Idealize.ShloMosaic.TcCoe Idealize.SL.Sem

/-! ## The three frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal instance. -/
theorem preserves : Cert.preserves_Kernel_KernelIdeal := trivial

/-! ## The kernel's run, read -/

/-- relu([A₁X | A₂X] · [W₁ ; W₂]) of the nine inputs. -/
def combined (x0 : FVec Ideal Cert.KernelIdeal.S50000x128 .f32) (x1 x2 : IVec Cert.KernelIdeal.S800000 32)
    (x3 : FVec Ideal Cert.KernelIdeal.S800000 .f32) (x4 x5 : IVec Cert.KernelIdeal.S800000 32)
    (x6 : FVec Ideal Cert.KernelIdeal.S800000 .f32) (x7 x8 : FVec Ideal Cert.KernelIdeal.S128x128 .f32) :
    Cert.KernelIdeal.S50000x128.Idx → EReal :=
  Cert.KernelIdeal.BlockProduct.reluProd
    (concatenate Cert.KernelIdeal.S50000x256 1
      [⟨Cert.KernelIdeal.S50000x128, Cert.CooRows.spmm (N := 50000) (M := 800000) (C := 128) Cert.KernelIdeal.Facts₀.bcast_S800000_S800000x1_0 Cert.KernelIdeal.Facts₀.bcast_S800000x1_S800000x128_0_1
          Cert.KernelIdeal.Facts₀.bcast_S_S50000x128 Cert.KernelIdeal.Facts₀.bcast_S_S800000 Cert.KernelIdeal.Facts₀.gather_S50000x128_S800000x1_S800000x128_1_0_n_n_0_1_1128_wf
          Cert.KernelIdeal.Facts₀.scatter_S50000x128_S800000x1_S800000x128_1_0_0_1_wf 50000#32 x1 x2 x3 x0⟩,
       ⟨Cert.KernelIdeal.S50000x128, Cert.CooRows.spmm (N := 50000) (M := 800000) (C := 128) Cert.KernelIdeal.Facts₀.bcast_S800000_S800000x1_0 Cert.KernelIdeal.Facts₀.bcast_S800000x1_S800000x128_0_1
          Cert.KernelIdeal.Facts₀.bcast_S_S50000x128 Cert.KernelIdeal.Facts₀.bcast_S_S800000 Cert.KernelIdeal.Facts₀.gather_S50000x128_S800000x1_S800000x128_1_0_n_n_0_1_1128_wf
          Cert.KernelIdeal.Facts₀.scatter_S50000x128_S800000x1_S800000x128_1_0_0_1_wf 50000#32 x4 x5 x6 x0⟩]
      Cert.KernelIdeal.Facts₀.concatenates_S50000x128_S50000x128_S50000x256_d1)
    (concatenate Cert.KernelIdeal.S256x128 0 [⟨Cert.KernelIdeal.S128x128, x7⟩, ⟨Cert.KernelIdeal.S128x128, x8⟩]
      Cert.KernelIdeal.Facts₀.concatenates_S128x128_S128x128_S256x128_d0)

/-- Every weakly fair execution of the idealized kernel ends with its result array at `combined` of the inputs and the
    inputs unchanged: the ten blocks written tile relu(Z · W), and Z, W are what the host operations computed. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v28)
          = combined (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) :=
  (θ_run Cert.KernelIdeal.defs _ _).mono
    (fun r h c => ⟨(h c).1.trans (by
        rw [Cert.KernelIdeal.WholeProduct.whole, Cert.KernelIdeal.RegionInputs.left_matrix,
          Cert.KernelIdeal.RegionInputs.right_matrix]
        rfl), (h c).2⟩)
    (Cert.KernelIdeal.Value.run_blocks m ρ)

/-! ## The two results agree -/

theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v29_eq,
    Cert.ReferenceIdeal.ProjectedRows.result_eq]
  obtain ⟨r0, r3, r6, r7, r8⟩ := Cert.RealInputs.real_of_pre _ _ _ _ _ _ _ _ _ (hpre c)
  exact (Cert.Linearity.relu_projected (N := 50000) (M := 800000) _ _ _ _ _ _ 50000#32 _ _ (by decide)
    _ _ _ _ _ _ _ _ _ _ _
    (Cert.ReferenceIdeal.ProjectedRows.projection₁_apply _ _) (Cert.ReferenceIdeal.ProjectedRows.projection₂_apply _ _)
    r0 r3 r6 r7 r8).symm

end Cert.Proof

/-- The certificate: the programs' stated facts hold (the generated instances), and the five claims. -/
theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
